-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x262144 : Shape := ⟨3, ![64, 1, 262144]⟩
abbrev S_ : Shape := ⟨0, ![]⟩

class Facts : Prop where
  bcast_S_S64x1x262144 : S_.BroadcastsInDim S64x1x262144 (![] : Fin 0 → Fin S64x1x262144.rank)
  reducesTo_S64x1x262144_S_d0_1_2 : S64x1x262144.ReducesTo [0, 1, 2] S_
  h_S_ : 0 < S_.numel

variable [Facts]

def fn {F : FTy → Type} [FloatOps F] (main_arg0 : FVec F S64x1x262144 .f32) (main_arg1 : FVec F S64x1x262144 .f32) (main_arg2 : FVec F S64x1x262144 .f32) : IVec S_ 1 :=
  let main_v0 : FVec F S64x1x262144 .f32 := Host.absf main_arg0
  let main_cst : FVec F S_ .f32 := constant S_ .f32 0x7F800000#32
  let main_v1 : FVec F S64x1x262144 .f32 := broadcastInDim S64x1x262144 ![] bcast_S_S64x1x262144 main_cst
  let main_v2 : IVec S64x1x262144 1 := cmpf .olt main_v0 main_v1
  let main_c : IVec S_ 1 := constantI S_ 1 1#1
  let main_v3 : IVec S_ 1 := (fun x v => Host.reduce IntOp.andi x v reducesTo_S64x1x262144_S_d0_1_2 h_S_) main_v2 main_c
  let main_v4 : FVec F S64x1x262144 .f32 := Host.absf main_arg1
  let main_cst_0 : FVec F S_ .f32 := constant S_ .f32 0x7F800000#32
  let main_v5 : FVec F S64x1x262144 .f32 := broadcastInDim S64x1x262144 ![] bcast_S_S64x1x262144 main_cst_0
  let main_v6 : IVec S64x1x262144 1 := cmpf .olt main_v4 main_v5
  let main_c_1 : IVec S_ 1 := constantI S_ 1 1#1
  let main_v7 : IVec S_ 1 := (fun x v => Host.reduce IntOp.andi x v reducesTo_S64x1x262144_S_d0_1_2 h_S_) main_v6 main_c_1
  let main_v8 : IVec S_ 1 := andi main_v3 main_v7
  let main_v9 : FVec F S64x1x262144 .f32 := Host.absf main_arg2
  let main_cst_2 : FVec F S_ .f32 := constant S_ .f32 0x7F800000#32
  let main_v10 : FVec F S64x1x262144 .f32 := broadcastInDim S64x1x262144 ![] bcast_S_S64x1x262144 main_cst_2
  let main_v11 : IVec S64x1x262144 1 := cmpf .olt main_v9 main_v10
  let main_c_3 : IVec S_ 1 := constantI S_ 1 1#1
  let main_v12 : IVec S_ 1 := (fun x v => Host.reduce IntOp.andi x v reducesTo_S64x1x262144_S_d0_1_2 h_S_) main_v11 main_c_3
  let main_v13 : IVec S_ 1 := andi main_v8 main_v12
  main_v13
-- ==== Kernel.lean ====
abbrev S64x1x262144 : Shape := ⟨3, ![64, 1, 262144]⟩
abbrev S64x1 : Shape := ⟨2, ![64, 1]⟩
abbrev S64 : Shape := ⟨1, ![64]⟩
abbrev S_ : Shape := ⟨0, ![]⟩
abbrev S32x1x65536 : Shape := ⟨3, ![32, 1, 65536]⟩
abbrev S32x1 : Shape := ⟨2, ![32, 1]⟩
abbrev S32x65536 : Shape := ⟨2, ![32, 65536]⟩
abbrev S32 : Shape := ⟨1, ![32]⟩

abbrev nBuf : Space → Nat
  | .hbm => 30
  | .vmem => 12
  | .smem => 0
  | _ => 0

abbrev bufTy : (tb : Table) → Fin (tcTables nBuf tb) → BufTy
  | .hbm, ⟨0, _⟩ => ⟨S64x1x262144, .f32⟩
  | .hbm, ⟨1, _⟩ => ⟨S64x1x262144, .f32⟩
  | .hbm, ⟨2, _⟩ => ⟨S64x1x262144, .f32⟩
  | .hbm, ⟨3, _⟩ => ⟨S64x1, .f32⟩
  | .hbm, ⟨4, _⟩ => ⟨S64x1, .f32⟩
  | .hbm, ⟨5, _⟩ => ⟨S64x1, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S32x1x65536, .f32⟩
  | .local _ .vmem, ⟨1, _⟩ => ⟨S32x1x65536, .f32⟩
  | .local _ .vmem, ⟨2, _⟩ => ⟨S32x1x65536, .f32⟩
  | .local _ .vmem, ⟨3, _⟩ => ⟨S32x1x65536, .f32⟩
  | .local _ .vmem, ⟨4, _⟩ => ⟨S32x1x65536, .f32⟩
  | .local _ .vmem, ⟨5, _⟩ => ⟨S32x1x65536, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | .local _ .vmem, ⟨9, _⟩ => ⟨S32x1, .f32⟩
  | .local _ .vmem, ⟨10, _⟩ => ⟨S32x1, .f32⟩
  | .local _ .vmem, ⟨11, _⟩ => ⟨S32x1, .f32⟩
  | _, _ => ⟨S64x1x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0_0 : Ref sig .tc := ⟨.hbm, 3, rfl⟩
abbrev main_call0_v0_1 : Ref sig .tc := ⟨.hbm, 4, rfl⟩
abbrev main_call0_v0_2 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_cst : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_cst_0 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_cst_1 : Ref sig .tc := ⟨.hbm, 20, rfl⟩
abbrev main_call0_v13 : Ref sig .tc := ⟨.hbm, 21, rfl⟩
abbrev main_call0_v14 : Ref sig .tc := ⟨.hbm, 22, rfl⟩
abbrev main_call0_cst_2 : Ref sig .tc := ⟨.hbm, 23, rfl⟩
abbrev main_call0_v15 : Ref sig .tc := ⟨.hbm, 24, rfl⟩
abbrev main_call0_v16 : Ref sig .tc := ⟨.hbm, 25, rfl⟩
abbrev main_call0_cst_3 : Ref sig .tc := ⟨.hbm, 26, rfl⟩
abbrev main_call0_v17 : Ref sig .tc := ⟨.hbm, 27, rfl⟩
abbrev main_call0_cst_4 : Ref sig .tc := ⟨.hbm, 28, rfl⟩
abbrev main_v0 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x1x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S64x1_S64 : S64x1.ShapeCasts S64
  bcast_S_S64 : S_.BroadcastsInDim S64 (![] : Fin 0 → Fin S64.rank)
  reducesTo_S64_S_d0 : S64.ReducesTo [0] S_
  h_S_ : 0 < S_.numel
  inb_S32x1_S32x1_0_0 : ∀ a, (![0, 0] : Fin 2 → Nat) a + S32x1.size a ≤ S32x1.size a
  h_S32x1 : 0 < S32x1.numel
  inb_S32x1x65536_S32x1x65536_0_0_0 : ∀ a, (![0, 0, 0] : Fin 3 → Nat) a + S32x1x65536.size a ≤ S32x1x65536.size a
  h_S32x1x65536 : 0 < S32x1x65536.numel
  shapeCasts_S32x1x65536_S32x65536 : S32x1x65536.ShapeCasts S32x65536
  shapeCasts_S32x1_S32x1 : S32x1.ShapeCasts S32x1
  reduces_S32x65536_S32 : S32x65536.Reduces [1] S32
  shapeCasts_S32_S32x1 : S32.ShapeCasts S32x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1x65536.size a ≤ S64x1x262144.size a
  hwx0_0 : ∀ i : grid0.Coords, EltTy.bits .f32 = 32 ∨ (Rect.block (s := S64x1x262144) S32x1x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1x65536.size a ≤ S64x1x262144.size a
  hwx0_1 : ∀ i : grid0.Coords, EltTy.bits .f32 = 32 ∨ (Rect.block (s := S64x1x262144) S32x1x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1x65536.size a ≤ S64x1x262144.size a
  hwx0_2 : ∀ i : grid0.Coords, EltTy.bits .f32 = 32 ∨ (Rect.block (s := S64x1x262144) S32x1x65536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S64x1.size a
  hwx0_3 : ∀ i : grid0.Coords, EltTy.bits .f32 = 32 ∨ (Rect.block (s := S64x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S64x1.size a
  hwx0_4 : ∀ i : grid0.Coords, EltTy.bits .f32 = 32 ∨ (Rect.block (s := S64x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S64x1.size a
  hwx0_5 : ∀ i : grid0.Coords, EltTy.bits .f32 = 32 ∨ (Rect.block (s := S64x1) S32x1.size (cc0_transform_5 i) (hinb0_5 i)).WholeWords (EltTy.packing .f32)

variable [Facts₀]

abbrev win0_0 : Pipeline.Window sig grid0 :=
  Pipeline.Window.ofSpec (Memref.whole main_arg0) S32x1x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1x65536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_0) S32x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0_1) S32x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0_2) S32x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1x262144 : Shape := ⟨3, ![64, 1, 262144]⟩
abbrev S64x262144 : Shape := ⟨2, ![64, 262144]⟩
abbrev S_ : Shape := ⟨0, ![]⟩
abbrev S64 : Shape := ⟨1, ![64]⟩

abbrev nBuf : Space → Nat
  | .hbm => 36
  | .vmem => 0
  | .smem => 0
  | _ => 0

abbrev bufTy : (tb : Table) → Fin (tcTables nBuf tb) → BufTy
  | .hbm, ⟨0, _⟩ => ⟨S64x1x262144, .f32⟩
  | .hbm, ⟨1, _⟩ => ⟨S64x1x262144, .f32⟩
  | .hbm, ⟨2, _⟩ => ⟨S64x1x262144, .f32⟩
  | .hbm, ⟨3, _⟩ => ⟨S64x262144, .f32⟩
  | .hbm, ⟨4, _⟩ => ⟨S64x262144, .f32⟩
  | .hbm, ⟨5, _⟩ => ⟨S64x262144, .f32⟩
  | .hbm, ⟨6, _⟩ => ⟨S64x262144, .f32⟩
  | .hbm, ⟨7, _⟩ => ⟨S_, .f32⟩
  | .hbm, ⟨8, _⟩ => ⟨S64, .f32⟩
  | .hbm, ⟨9, _⟩ => ⟨S64x262144, .f32⟩
  | .hbm, ⟨10, _⟩ => ⟨S_, .f32⟩
  | .hbm, ⟨11, _⟩ => ⟨S64, .f32⟩
  | .hbm, ⟨12, _⟩ => ⟨S64x262144, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S64x1x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  shapeCasts_S64x1x262144_S64x262144 : S64x1x262144.ShapeCasts S64x262144
  reducesTo_S64x262144_S64_d1 : S64x262144.ReducesTo [1] S64
  h_S_ : 0 < S_.numel
  bcast_S_S64 : S_.BroadcastsInDim S64 (![] : Fin 0 → Fin S64.rank)
  reducesTo_S64_S_d0 : S64.ReducesTo [0] S_

variable [Facts₀]

class Facts : Prop extends Facts₀ where

variable [Facts]
-- ==== Proof.Spec.lean ====
/-
  What both programs compute, as functions of the three argument arrays t (target), p (prediction), w (noise) of shape
  [64, 1, 262144] over the extended reals.

  For each of the 64 rows R there are three dot products along the last axis:
      pt R = sum_k p[R,0,k] * t[R,0,k],   tt R = sum_k t[R,0,k]^2,   nn R = sum_k w[R,0,k]^2.
  From these three length-64 vectors one closing computation produces the scalar
      mean_R 10 * (log(nn / ((pt / (tt + e))^2 * tt + e)) * c)
  with e, c, 10 and 64 given as float words. The closing computation is the same sequence of host operations with the
  same words in both programs, so it is stated once, as one function of the three vectors, and never opened: the two
  programs agree as soon as their three vectors agree.
-/
import Idealize.ShloMosaic.PureOps.Ideal
import Idealize.ShloMosaic.Lib.ValueIdx
import Idealize.ShloMosaic.Lib.Pipeline.Value

noncomputable section

namespace Cert.Snr

open Idealize.ShloMosaic Idealize.ShloMosaic.ValueIdx
open scoped BigOperators

/-- The argument arrays' shape, the per-row vectors' shape, and the scalar shape. -/
abbrev Arr : Shape := ⟨3, ![64, 1, 262144]⟩
abbrev Rows : Shape := ⟨1, ![64]⟩
abbrev Scal : Shape := ⟨0, ![]⟩

/-- Row `R`'s dot product of two argument arrays along the last axis. -/
def rowDot (f g : Arr.Idx → EReal) (R : Fin 64) : EReal :=
  ∑ k : Fin 262144, f (ix3 R (0 : Fin 1) k) * g (ix3 R (0 : Fin 1) k)

/-- The 64 row dot products as a vector. -/
def rowDots (f g : Arr.Idx → EReal) : FVec Ideal Rows .f32 := fun i => rowDot f g (i 0)

/-- The closing computation on the three per-row vectors: scale = pt / (tt + e); s = scale * scale * tt;
    snr = nn / (s + e); the result is the sum over the rows of 10 * (log snr * c), divided by 64. Stated for any
    reading of the floats; the certificate uses it over the extended reals. -/
def closing {F : FTy → Type} [FloatOps F] (hb : Scal.BroadcastsInDim Rows (![] : Fin 0 → Fin Rows.rank))
    (hr : Rows.ReducesTo [0] Scal) (h0 : 0 < Scal.numel) (pt tt nn : FVec F Rows .f32) : FVec F Scal .f32 :=
  Host.divf (F := F)
    (Host.reduceAdd (F := F)
      (mulf (F := F) (broadcastInDim Rows ![] hb (constant (F := F) Scal .f32 0x41200000#32))
        (mulf (F := F)
          (Host.log (F := F)
            (Host.divf (F := F) nn
              (addf (F := F)
                (mulf (F := F)
                  (mulf (F := F)
                    (Host.divf (F := F) pt
                      (addf (F := F) tt (broadcastInDim Rows ![] hb (constant (F := F) Scal .f32 0x322BCC77#32))))
                    (Host.divf (F := F) pt
                      (addf (F := F) tt (broadcastInDim Rows ![] hb (constant (F := F) Scal .f32 0x322BCC77#32)))))
                  tt)
                (broadcastInDim Rows ![] hb (constant (F := F) Scal .f32 0x322BCC77#32)))))
          (broadcastInDim Rows ![] hb (constant (F := F) Scal .f32 0x3EDE5BD9#32))))
      (constant (F := F) Scal .f32 0x00000000#32) hr h0)
    (constant (F := F) Scal .f32 0x42800000#32)

/-- The whole result as a function of the three argument arrays. -/
def result (hb : Scal.BroadcastsInDim Rows (![] : Fin 0 → Fin Rows.rank)) (hr : Rows.ReducesTo [0] Scal)
    (h0 : 0 < Scal.numel) (t p w : Arr.Idx → EReal) : FVec Ideal Scal .f32 :=
  closing (F := Ideal) hb hr h0 (rowDots p t) (rowDots t t) (rowDots w w)

end Cert.Snr

end
-- ==== Proof.Reference.lean ====
/-
  The reference program's value. It views each argument as a [64, 262144] matrix, multiplies two of them entry by
  entry and sums each row from the initial value 0: at row i that is 0 + sum_k x[i,0,k] * y[i,0,k], the row dot
  product. The rest of its operations are the closing computation of the three row-dot vectors.
-/
import proofs.«174091_j87153476371100_2_alg».proof.Proof.Gen.ReferenceIdeal.Run
import proofs.«174091_j87153476371100_2_alg».proof.Proof.Gen.ReferenceIdeal.Read
import proofs.«174091_j87153476371100_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Idealize.SL.Sem
open scoped BigOperators

/-- Entry (i, k) of the [64, 262144] view is entry (i, 0, k) of the [64, 1, 262144] array: the position
    i * 262144 + k splits back into quotient i and remainder k because k < 262144. -/
theorem view_row (R : Fin 64) (k : Fin 262144) (j : S64x262144.Idx) (h0 : (j 0).val = R.val) (h1 : (j 1).val = k.val) :
    idx_main_v0 j = ix3 R (0 : Fin 1) k := by
  funext a
  have hk := k.isLt
  match a with
  | ⟨0, _⟩ => exact Fin.ext (by show ((j 0).val * 262144 + (j 1).val) / 262144 = R.val; rw [h0, h1]; omega)
  | ⟨1, _⟩ => rfl
  | ⟨2, _⟩ => exact Fin.ext (by show ((j 0).val * 262144 + (j 1).val) % 262144 = k.val; rw [h0, h1]; omega)

/-- The reference's first row sum is the row dot product of the second argument with the first. -/
theorem pt_eq (x0 x1 : (⟨S64x1x262144, .f32⟩ : BufTy).Contents (Elt Ideal)) :
    val_main_v4 (F := Ideal) x0 x1 = Cert.Snr.rowDots x1 x0 := by
  funext i
  rw [val_main_v4_apply]
  unfold Cert.Snr.rowDots Cert.Snr.rowDot
  rw [val_main_cst_apply, Ideal.ofBits_def, Ideal.ofBits_zero_f32, zero_add]
  refine Finset.sum_congr rfl fun k _ => ?_
  rw [val_main_v3_apply, val_main_v1_apply, val_main_v0_apply, Ideal.mulf_def]
  rw [show idx_main_v1 (idx_main_v4 i k) = ix3 (i 0) (0 : Fin 1) k from view_row (i 0) k _ rfl rfl,
    show idx_main_v0 (idx_main_v4 i k) = ix3 (i 0) (0 : Fin 1) k from view_row (i 0) k _ rfl rfl]
  rfl

/-- Its second row sum is the first argument's row dot product with itself. -/
theorem tt_eq (x0 : (⟨S64x1x262144, .f32⟩ : BufTy).Contents (Elt Ideal)) :
    val_main_v6 (F := Ideal) x0 = Cert.Snr.rowDots x0 x0 := by
  funext i
  rw [val_main_v6_apply]
  unfold Cert.Snr.rowDots Cert.Snr.rowDot
  rw [val_main_cst_0_apply, Ideal.ofBits_def, Ideal.ofBits_zero_f32, zero_add]
  refine Finset.sum_congr rfl fun k _ => ?_
  rw [val_main_v5_apply, val_main_v0_apply, Ideal.mulf_def]
  rw [show idx_main_v0 (idx_main_v6 i k) = ix3 (i 0) (0 : Fin 1) k from view_row (i 0) k _ rfl rfl]
  rfl

/-- Its third row sum is the third argument's row dot product with itself. -/
theorem nn_eq (x2 : (⟨S64x1x262144, .f32⟩ : BufTy).Contents (Elt Ideal)) :
    val_main_v8 (F := Ideal) x2 = Cert.Snr.rowDots x2 x2 := by
  funext i
  rw [val_main_v8_apply]
  unfold Cert.Snr.rowDots Cert.Snr.rowDot
  rw [val_main_cst_1_apply, Ideal.ofBits_def, Ideal.ofBits_zero_f32, zero_add]
  refine Finset.sum_congr rfl fun k _ => ?_
  rw [val_main_v7_apply, val_main_v2_apply, Ideal.mulf_def]
  rw [show idx_main_v2 (idx_main_v8 i k) = ix3 (i 0) (0 : Fin 1) k from view_row (i 0) k _ rfl rfl]
  rfl

/-- The reference's result is the closing computation of its three row sums … -/
theorem stage_eq (x0 x1 x2 : (⟨S64x1x262144, .f32⟩ : BufTy).Contents (Elt Ideal)) :
    val_main_v23 (F := Ideal) x0 x1 x2
      = Cert.Snr.closing (F := Ideal) bcast_S_S64 reducesTo_S64_S_d0 h_S_ (val_main_v4 (F := Ideal) x0 x1) (val_main_v6 (F := Ideal) x0)
          (val_main_v8 (F := Ideal) x2) := rfl

/-- … so it is the specified function of the three arguments. -/
theorem result_eq (x0 x1 x2 : (⟨S64x1x262144, .f32⟩ : BufTy).Contents (Elt Ideal)) :
    val_main_v23 (F := Ideal) x0 x1 x2 = Cert.Snr.result bcast_S_S64 reducesTo_S64_S_d0 h_S_ x0 x1 x2 := by
  rw [stage_eq, pt_eq, tt_eq, nn_eq]
  rfl

end Cert.ReferenceIdeal.RefValue

end
-- ==== Proof.Pieces.lean ====
/-
  What one run of the kernel body leaves in each of its three output blocks, as a value.

  At a grid point whose second coordinate is 0 the body first stores the zero block into each output, reads it back,
  and stores zero block + (this tile's row sums); at every other point it reads what the point before left and stores
  that + (this tile's row sums). So in both cases an output block ends at the body's one arithmetic term for that
  output, applied to the loaded input blocks and to the block's previous contents (the zero block in the first case).
-/
import proofs.«174091_j87153476371100_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A point that continues a row block: previous contents + this tile -/

theorem out_B_3 (c : Dev nD) (i : grid0.Coords) (arg2 : Memref sig .tc .vmem S32x1x65536 .f32) (harg2 : arg2.IsWhole) (arg3 : Memref sig .tc .vmem S32x1x65536 .f32) (harg3 : arg3.IsWhole) (arg4 : Memref sig .tc .vmem S32x1x65536 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i)
    (x0 x1 x2 : Vec F S32x1x65536 .f32) (xo3 xo4 xo5 : Vec F S32x1 .f32) :
    out0_B_3 c i arg2 harg2 arg3 harg3 arg4 harg4 arg5 harg5 arg6 harg6 arg7 harg7 hc0 x0 x1 x2 xo3 xo4 xo5 = k0_pay5 x0 x1 xo3 := by
  unfold out0_B_3
  rw [View.read_writes_eq_canon _ _ _ (cover0_B_3 c i arg2 harg2 arg3 harg3 arg4 harg4 arg5 harg5 arg6 harg6 arg7 harg7 hc0 x0 x1 x2 xo3 xo4 xo5)]
  unfold kernelRun0_B
  dsimp only
  sl_unfold_words
  rw [View.canon_unit_zero hz2]
  simp only [View.readAt_eq_ld, harg2.read_unread, harg3.read_unread, harg5.read_unread, View.ld_unit_zero (S := S32x1x65536) hz3,
    View.ld_unit_zero (S := S32x1) hz2]

theorem out_B_4 (c : Dev nD) (i : grid0.Coords) (arg2 : Memref sig .tc .vmem S32x1x65536 .f32) (harg2 : arg2.IsWhole) (arg3 : Memref sig .tc .vmem S32x1x65536 .f32) (harg3 : arg3.IsWhole) (arg4 : Memref sig .tc .vmem S32x1x65536 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i)
    (x0 x1 x2 : Vec F S32x1x65536 .f32) (xo3 xo4 xo5 : Vec F S32x1 .f32) :
    out0_B_4 c i arg2 harg2 arg3 harg3 arg4 harg4 arg5 harg5 arg6 harg6 arg7 harg7 hc0 x0 x1 x2 xo3 xo4 xo5 = k0_pay6 x0 xo4 := by
  unfold out0_B_4
  rw [View.read_writes_eq_canon _ _ _ (cover0_B_4 c i arg2 harg2 arg3 harg3 arg4 harg4 arg5 harg5 arg6 harg6 arg7 harg7 hc0 x0 x1 x2 xo3 xo4 xo5)]
  unfold kernelRun0_B
  dsimp only
  sl_unfold_words
  rw [View.canon_unit_zero hz2]
  simp only [View.readAt_eq_ld, harg2.read_unread, harg6.read_unread, View.ld_unit_zero (S := S32x1x65536) hz3,
    View.ld_unit_zero (S := S32x1) hz2]

theorem out_B_5 (c : Dev nD) (i : grid0.Coords) (arg2 : Memref sig .tc .vmem S32x1x65536 .f32) (harg2 : arg2.IsWhole) (arg3 : Memref sig .tc .vmem S32x1x65536 .f32) (harg3 : arg3.IsWhole) (arg4 : Memref sig .tc .vmem S32x1x65536 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i)
    (x0 x1 x2 : Vec F S32x1x65536 .f32) (xo3 xo4 xo5 : Vec F S32x1 .f32) :
    out0_B_5 c i arg2 harg2 arg3 harg3 arg4 harg4 arg5 harg5 arg6 harg6 arg7 harg7 hc0 x0 x1 x2 xo3 xo4 xo5 = k0_pay7 x2 xo5 := by
  unfold out0_B_5
  rw [View.read_writes_eq_canon _ _ _ (cover0_B_5 c i arg2 harg2 arg3 harg3 arg4 harg4 arg5 harg5 arg6 harg6 arg7 harg7 hc0 x0 x1 x2 xo3 xo4 xo5)]
  unfold kernelRun0_B
  dsimp only
  sl_unfold_words
  rw [View.canon_unit_zero hz2]
  simp only [View.readAt_eq_ld, harg4.read_unread, harg7.read_unread, View.ld_unit_zero (S := S32x1x65536) hz3,
    View.ld_unit_zero (S := S32x1) hz2]

/-! ## A point that starts a row block: the zero block + this tile -/

theorem out_A_3 (c : Dev nD) (i : grid0.Coords) (arg2 : Memref sig .tc .vmem S32x1x65536 .f32) (harg2 : arg2.IsWhole) (arg3 : Memref sig .tc .vmem S32x1x65536 .f32) (harg3 : arg3.IsWhole) (arg4 : Memref sig .tc .vmem S32x1x65536 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : cond0_0 i)
    (x0 x1 x2 : Vec F S32x1x65536 .f32) :
    out0_A_3 c i arg2 harg2 arg3 harg3 arg4 harg4 arg5 harg5 arg6 harg6 arg7 harg7 hc0 x0 x1 x2 = k0_pay5 x0 x1 k0_pay1 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_cons_unit_zero (S := S32x1) hz2]
  simp only [View.readCov_unit_zero (S := S32x1) _ hz2, View.readAt_eq_ld, harg2.read_unread, harg3.read_unread, View.ld_unit_zero (S := S32x1x65536) hz3,
    View.ld_unit_zero (S := S32x1) hz2]

theorem out_A_4 (c : Dev nD) (i : grid0.Coords) (arg2 : Memref sig .tc .vmem S32x1x65536 .f32) (harg2 : arg2.IsWhole) (arg3 : Memref sig .tc .vmem S32x1x65536 .f32) (harg3 : arg3.IsWhole) (arg4 : Memref sig .tc .vmem S32x1x65536 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : cond0_0 i)
    (x0 x1 x2 : Vec F S32x1x65536 .f32) :
    out0_A_4 c i arg2 harg2 arg3 harg3 arg4 harg4 arg5 harg5 arg6 harg6 arg7 harg7 hc0 x0 x1 x2 = k0_pay6 x0 k0_pay2 := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S32x1) hz2]
  simp only [View.readCov_unit_zero (S := S32x1) _ hz2, View.readAt_eq_ld, harg2.read_unread, View.ld_unit_zero (S := S32x1x65536) hz3,
    View.ld_unit_zero (S := S32x1) hz2]

theorem out_A_5 (c : Dev nD) (i : grid0.Coords) (arg2 : Memref sig .tc .vmem S32x1x65536 .f32) (harg2 : arg2.IsWhole) (arg3 : Memref sig .tc .vmem S32x1x65536 .f32) (harg3 : arg3.IsWhole) (arg4 : Memref sig .tc .vmem S32x1x65536 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : cond0_0 i)
    (x0 x1 x2 : Vec F S32x1x65536 .f32) :
    out0_A_5 c i arg2 harg2 arg3 harg3 arg4 harg4 arg5 harg5 arg6 harg6 arg7 harg7 hc0 x0 x1 x2 = k0_pay7 x2 k0_pay3 := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S32x1) hz2]
  simp only [View.readCov_unit_zero (S := S32x1) _ hz2, View.readAt_eq_ld, harg4.read_unread, View.ld_unit_zero (S := S32x1x65536) hz3,
    View.ld_unit_zero (S := S32x1) hz2]

end Cert.KernelIdeal.Body

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.Payload.lean ====
/-
  The body's arithmetic read at an entry, over the extended reals.

  Each output's term is: view the loaded [32, 1, 65536] blocks as [32, 65536] matrices, multiply two of them entry by
  entry, sum each row starting from the word 0, view the 32 sums as a [32, 1] column, and add it to the block's
  previous contents. At row r that is
      previous (r, 0) + sum over the 65536 lanes l of x[r,0,l] * y[r,0,l].
  The zero block the first point of a row block stores is 0 everywhere.
-/
import proofs.«174091_j87153476371100_2_alg».proof.Proof.Gen.KernelIdeal.Skeleton
import proofs.«174091_j87153476371100_2_alg».proof.Proof.LibKeepdims
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Body

open Cert.KernelIdeal Cert.KernelIdeal.Gen

/-- The [32, 65536] view of a [32, 1, 65536] block: entry (r, l) is entry (r, 0, l) — the same row-major position. -/
theorem flat_apply (x : Vec Ideal S32x1x65536 .f32) (r : Fin 32) (l : Fin 65536) :
    shapeCast S32x65536 x shapeCasts_S32x1x65536_S32x65536 (ix2 r l) = x (ix3 r (0 : Fin 1) l) := by
  refine shapeCast_apply x shapeCasts_S32x1x65536_S32x65536 (ix2 r l) (ix3 r (0 : Fin 1) l) ?_
  rw [Shape.rowMajor_val_three, Shape.rowMajor_val_two]
  show (r.val * 1 + 0) * 65536 + l.val = r.val * 65536 + l.val
  omega

/-- One tile's row sum: the lane reduction of the entrywise product of two blocks, at row r, is the sum over the lanes
    of the products of that row's entries. -/
theorem tile_sum (x y : Vec Ideal S32x1x65536 .f32) (r : Fin 32) :
    multiReduction (F := Ideal) .add [1] S32
        (mulf (F := Ideal) (shapeCast S32x65536 x shapeCasts_S32x1x65536_S32x65536)
          (shapeCast S32x65536 y shapeCasts_S32x1x65536_S32x65536))
        0x00000000#32 reduces_S32x65536_S32 (.inl rfl) rfl (ix1 r)
      = ∑ l : Fin 65536, x (ix3 r (0 : Fin 1) l) * y (ix3 r (0 : Fin 1) l) := by
  refine (Cert.Keepdims.rowSum_apply _ reduces_S32x65536_S32 (.inl rfl) rfl r).trans ?_
  refine Finset.sum_congr rfl fun l _ => ?_
  rw [mulf_apply, flat_apply, flat_apply]

/-- The column of 32 row sums added to the previous contents, at row r. -/
theorem column_add (acc : Vec Ideal S32x1 .f32) (s : FVec Ideal S32 .f32) (r : Fin 32) (q : Fin 1) :
    addf (F := Ideal) (shapeCast S32x1 acc shapeCasts_S32x1_S32x1) (shapeCast S32x1 s shapeCasts_S32_S32x1) (ix2 r q)
      = acc (ix2 r q) + s (ix1 r) := by
  rw [addf_apply, shapeCast_self, Cert.Keepdims.shapeCast_a_a1_apply]

/-- Output 0's term: previous + this tile's row sum of (second block) * (first block). -/
theorem pay5_apply (x0 x1 : Vec Ideal S32x1x65536 .f32) (acc : Vec Ideal S32x1 .f32) (r : Fin 32) (q : Fin 1) :
    k0_pay5 (F := Ideal) x0 x1 acc (ix2 r q)
      = acc (ix2 r q) + ∑ l : Fin 65536, x1 (ix3 r (0 : Fin 1) l) * x0 (ix3 r (0 : Fin 1) l) := by
  unfold k0_pay5 k0_pay4
  dsimp only
  refine (column_add acc _ r q).trans ?_
  exact congrArg (acc (ix2 r q) + ·) (tile_sum x1 x0 r)

/-- Output 1's term: previous + this tile's row sum of the first block's squares. -/
theorem pay6_apply (x0 : Vec Ideal S32x1x65536 .f32) (acc : Vec Ideal S32x1 .f32) (r : Fin 32) (q : Fin 1) :
    k0_pay6 (F := Ideal) x0 acc (ix2 r q)
      = acc (ix2 r q) + ∑ l : Fin 65536, x0 (ix3 r (0 : Fin 1) l) * x0 (ix3 r (0 : Fin 1) l) := by
  unfold k0_pay6 k0_pay4
  dsimp only
  refine (column_add acc _ r q).trans ?_
  exact congrArg (acc (ix2 r q) + ·) (tile_sum x0 x0 r)

/-- Output 2's term: previous + this tile's row sum of the third block's squares. -/
theorem pay7_apply (x2 : Vec Ideal S32x1x65536 .f32) (acc : Vec Ideal S32x1 .f32) (r : Fin 32) (q : Fin 1) :
    k0_pay7 (F := Ideal) x2 acc (ix2 r q)
      = acc (ix2 r q) + ∑ l : Fin 65536, x2 (ix3 r (0 : Fin 1) l) * x2 (ix3 r (0 : Fin 1) l) := by
  unfold k0_pay7
  dsimp only
  refine (column_add acc _ r q).trans ?_
  exact congrArg (acc (ix2 r q) + ·) (tile_sum x2 x2 r)

/-- The zero blocks are 0 at every entry. -/
theorem pay1_apply (j : S32x1.Idx) : k0_pay1 (F := Ideal) j = 0 := Ideal.ofBits_zero_f32
theorem pay2_apply (j : S32x1.Idx) : k0_pay2 (F := Ideal) j = 0 := Ideal.ofBits_zero_f32
theorem pay3_apply (j : S32x1.Idx) : k0_pay3 (F := Ideal) j = 0 := Ideal.ofBits_zero_f32

end Cert.KernelIdeal.Body

end
-- ==== Proof.Blocks.lean ====
/-
  Where the grid's blocks sit in the arrays.

  The grid has 2 x 4 points, numbered t = 4 * (row block) + (lane tile). At point t an input's block holds rows
  32 * (t / 4) .. + 31 and lanes 65536 * (t % 4) .. + 65535 of its [64, 1, 262144] array; an output's block holds rows
  32 * (t / 4) .. + 31 of its [64, 1] array, whatever the lane tile.
-/
import proofs.«174091_j87153476371100_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen

variable {F : FTy → Type} [FloatOps F]
variable (m : (ℓ : Loc nD τ sig) → Buf (Elt F) ℓ)

theorem t_lt (t : Fin cfg0.N) : t.val < 8 := lt_of_lt_of_eq t.isLt (show cfg0.N = 8 from N_0)

/-- The array row that row r of point t's blocks is. -/
def row (t : Fin cfg0.N) (r : Fin 32) : Fin 64 := ⟨32 * (t.val / 4) + r.val, by have := t_lt t; have := r.isLt; omega⟩
/-- The array lane that lane l of point t's input blocks is. -/
def lane (t : Fin cfg0.N) (l : Fin 65536) : Fin 262144 := ⟨65536 * (t.val % 4) + l.val, by have := l.isLt; omega⟩

theorem row_val (t : Fin cfg0.N) (r : Fin 32) : (row t r).val = 32 * (t.val / 4) + r.val := rfl
theorem lane_val (t : Fin cfg0.N) (l : Fin 65536) : (lane t l).val = 65536 * (t.val % 4) + l.val := rfl

/-- The printed index maps, decided over the grid's 8 points: an input's block index is (t / 4, 0, t % 4) … -/
theorem index_in0 : ∀ t : Fin cfg0.N, win0_0.index t (0 : Fin 3) = t.val / 4 ∧ win0_0.index t (1 : Fin 3) = 0 ∧ win0_0.index t (2 : Fin 3) = t.val % 4 :=
  (by decide +kernel : ∀ t : Fin grid0.N, _)
theorem index_in1 : ∀ t : Fin cfg0.N, win0_1.index t (0 : Fin 3) = t.val / 4 ∧ win0_1.index t (1 : Fin 3) = 0 ∧ win0_1.index t (2 : Fin 3) = t.val % 4 :=
  (by decide +kernel : ∀ t : Fin grid0.N, _)
theorem index_in2 : ∀ t : Fin cfg0.N, win0_2.index t (0 : Fin 3) = t.val / 4 ∧ win0_2.index t (1 : Fin 3) = 0 ∧ win0_2.index t (2 : Fin 3) = t.val % 4 :=
  (by decide +kernel : ∀ t : Fin grid0.N, _)
/-- … and an output's is (t / 4, 0). -/
theorem index_out3 : ∀ t : Fin cfg0.N, win0_3.index t (0 : Fin 2) = t.val / 4 ∧ win0_3.index t (1 : Fin 2) = 0 :=
  (by decide +kernel : ∀ t : Fin grid0.N, _)
theorem index_out4 : ∀ t : Fin cfg0.N, win0_4.index t (0 : Fin 2) = t.val / 4 ∧ win0_4.index t (1 : Fin 2) = 0 :=
  (by decide +kernel : ∀ t : Fin grid0.N, _)
theorem index_out5 : ∀ t : Fin cfg0.N, win0_5.index t (0 : Fin 2) = t.val / 4 ∧ win0_5.index t (1 : Fin 2) = 0 :=
  (by decide +kernel : ∀ t : Fin grid0.N, _)

/-- Input 0's block at point t, at (r, 0, l), is argument 0 at (row t r, 0, lane t l). -/
theorem iblk0_apply (c : Dev nD) (t : Fin cfg0.N) (r : Fin 32) (l : Fin 65536) :
    (iblk m c 0 t : Vec F S32x1x65536 .f32) (ix3 r (0 : Fin 1) l)
      = m ((c : Thread nD τ).loc main_arg0) (ix3 (row t r) (0 : Fin 1) (lane t l)) := by
  obtain ⟨e0, e1, e2⟩ := index_in0 t
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 3) * 32 + 1 * r.val = 32 * (t.val / 4) + r.val; rw [e0]; omega
  | ⟨1, _⟩ => show win0_0.index t (1 : Fin 3) * 1 + 1 * 0 = 0; rw [e1]
  | ⟨2, _⟩ => show win0_0.index t (2 : Fin 3) * 65536 + 1 * l.val = 65536 * (t.val % 4) + l.val; rw [e2]; omega

/-- Input 1's block at point t, at (r, 0, l), is argument 1 at (row t r, 0, lane t l). -/
theorem iblk1_apply (c : Dev nD) (t : Fin cfg0.N) (r : Fin 32) (l : Fin 65536) :
    (iblk m c 1 t : Vec F S32x1x65536 .f32) (ix3 r (0 : Fin 1) l)
      = m ((c : Thread nD τ).loc main_arg1) (ix3 (row t r) (0 : Fin 1) (lane t l)) := by
  obtain ⟨e0, e1, e2⟩ := index_in1 t
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 3) * 32 + 1 * r.val = 32 * (t.val / 4) + r.val; rw [e0]; omega
  | ⟨1, _⟩ => show win0_1.index t (1 : Fin 3) * 1 + 1 * 0 = 0; rw [e1]
  | ⟨2, _⟩ => show win0_1.index t (2 : Fin 3) * 65536 + 1 * l.val = 65536 * (t.val % 4) + l.val; rw [e2]; omega

/-- Input 2's block at point t, at (r, 0, l), is argument 2 at (row t r, 0, lane t l). -/
theorem iblk2_apply (c : Dev nD) (t : Fin cfg0.N) (r : Fin 32) (l : Fin 65536) :
    (iblk m c 2 t : Vec F S32x1x65536 .f32) (ix3 r (0 : Fin 1) l)
      = m ((c : Thread nD τ).loc main_arg2) (ix3 (row t r) (0 : Fin 1) (lane t l)) := by
  obtain ⟨e0, e1, e2⟩ := index_in2 t
  unfold iblk
  rw [View.read_apply]
  show m ((c : Thread nD τ).loc main_arg2) _ = m ((c : Thread nD τ).loc main_arg2) _
  congr 1
  funext a
  apply Fin.ext
  match a with
  | ⟨0, _⟩ => show win0_2.index t (0 : Fin 3) * 32 + 1 * r.val = 32 * (t.val / 4) + r.val; rw [e0]; omega
  | ⟨1, _⟩ => show win0_2.index t (1 : Fin 3) * 1 + 1 * 0 = 0; rw [e1]
  | ⟨2, _⟩ => show win0_2.index t (2 : Fin 3) * 65536 + 1 * l.val = 65536 * (t.val % 4) + l.val; rw [e2]; omega

/-- If a [32, 1] block agrees, row by row, with rows 32 * (t / 4) .. of a [64, 1] array, then what point t writes back of it
    is output 0's block at t read off that array. -/
theorem block_of_rows3 (X : Vec F S32x1 .f32) (G : S64x1.Idx → Elt F .f32) (t : Fin cfg0.N)
    (h : ∀ (r : Fin 32) (q : Fin 1), X (ix2 r q) = G (ix2 (row t r) q)) :
    (cfg0.win 3).cut (grid0.coords t) X = ((cfg0.win 3).blk t).view.read (Elt F) G := by
  obtain ⟨e0, e1⟩ := index_out3 t
  funext j
  have hj0 : (j 0).val < 32 := lt_of_lt_of_le (j 0).isLt ((cfg0.win 3).xsize_le (grid0.coords t) 0)
  have hj1 : (j 1).val < 1 := lt_of_lt_of_le (j 1).isLt ((cfg0.win 3).xsize_le (grid0.coords t) 1)
  have hx : (cfg0.win 3).xinj (grid0.coords t) j = ix2 (⟨(j 0).val, hj0⟩ : Fin 32) (⟨(j 1).val, hj1⟩ : Fin 1) := by
    funext a
    match a with
    | ⟨0, _⟩ => rfl
    | ⟨1, _⟩ => rfl
  rw [View.read_apply]
  show X ((cfg0.win 3).xinj (grid0.coords t) j) = G (((cfg0.win 3).blk t).view.emb j)
  refine (congrArg X hx).trans ((h _ _).trans (congrArg G ?_))
  funext a
  apply Fin.ext
  match a with
  | ⟨0, _⟩ => show 32 * (t.val / 4) + (j 0).val = win0_3.index t (0 : Fin 2) * 32 + 1 * (j 0).val; rw [e0]; omega
  | ⟨1, _⟩ => show (j 1).val = win0_3.index t (1 : Fin 2) * 1 + 1 * (j 1).val; rw [e1]; omega

/-- If a [32, 1] block agrees, row by row, with rows 32 * (t / 4) .. of a [64, 1] array, then what point t writes back of it
    is output 1's block at t read off that array. -/
theorem block_of_rows4 (X : Vec F S32x1 .f32) (G : S64x1.Idx → Elt F .f32) (t : Fin cfg0.N)
    (h : ∀ (r : Fin 32) (q : Fin 1), X (ix2 r q) = G (ix2 (row t r) q)) :
    (cfg0.win 4).cut (grid0.coords t) X = ((cfg0.win 4).blk t).view.read (Elt F) G := by
  obtain ⟨e0, e1⟩ := index_out4 t
  funext j
  have hj0 : (j 0).val < 32 := lt_of_lt_of_le (j 0).isLt ((cfg0.win 4).xsize_le (grid0.coords t) 0)
  have hj1 : (j 1).val < 1 := lt_of_lt_of_le (j 1).isLt ((cfg0.win 4).xsize_le (grid0.coords t) 1)
  have hx : (cfg0.win 4).xinj (grid0.coords t) j = ix2 (⟨(j 0).val, hj0⟩ : Fin 32) (⟨(j 1).val, hj1⟩ : Fin 1) := by
    funext a
    match a with
    | ⟨0, _⟩ => rfl
    | ⟨1, _⟩ => rfl
  rw [View.read_apply]
  show X ((cfg0.win 4).xinj (grid0.coords t) j) = G (((cfg0.win 4).blk t).view.emb j)
  refine (congrArg X hx).trans ((h _ _).trans (congrArg G ?_))
  funext a
  apply Fin.ext
  match a with
  | ⟨0, _⟩ => show 32 * (t.val / 4) + (j 0).val = win0_4.index t (0 : Fin 2) * 32 + 1 * (j 0).val; rw [e0]; omega
  | ⟨1, _⟩ => show (j 1).val = win0_4.index t (1 : Fin 2) * 1 + 1 * (j 1).val; rw [e1]; omega

/-- If a [32, 1] block agrees, row by row, with rows 32 * (t / 4) .. of a [64, 1] array, then what point t writes back of it
    is output 2's block at t read off that array. -/
theorem block_of_rows5 (X : Vec F S32x1 .f32) (G : S64x1.Idx → Elt F .f32) (t : Fin cfg0.N)
    (h : ∀ (r : Fin 32) (q : Fin 1), X (ix2 r q) = G (ix2 (row t r) q)) :
    (cfg0.win 5).cut (grid0.coords t) X = ((cfg0.win 5).blk t).view.read (Elt F) G := by
  obtain ⟨e0, e1⟩ := index_out5 t
  funext j
  have hj0 : (j 0).val < 32 := lt_of_lt_of_le (j 0).isLt ((cfg0.win 5).xsize_le (grid0.coords t) 0)
  have hj1 : (j 1).val < 1 := lt_of_lt_of_le (j 1).isLt ((cfg0.win 5).xsize_le (grid0.coords t) 1)
  have hx : (cfg0.win 5).xinj (grid0.coords t) j = ix2 (⟨(j 0).val, hj0⟩ : Fin 32) (⟨(j 1).val, hj1⟩ : Fin 1) := by
    funext a
    match a with
    | ⟨0, _⟩ => rfl
    | ⟨1, _⟩ => rfl
  rw [View.read_apply]
  show X ((cfg0.win 5).xinj (grid0.coords t) j) = G (((cfg0.win 5).blk t).view.emb j)
  refine (congrArg X hx).trans ((h _ _).trans (congrArg G ?_))
  funext a
  apply Fin.ext
  match a with
  | ⟨0, _⟩ => show 32 * (t.val / 4) + (j 0).val = win0_5.index t (0 : Fin 2) * 32 + 1 * (j 0).val; rw [e0]; omega
  | ⟨1, _⟩ => show (j 1).val = win0_5.index t (1 : Fin 2) * 1 + 1 * (j 1).val; rw [e1]; omega

end Cert.KernelIdeal.Body

end
-- ==== Proof.LibTileSum.lean ====
/-
  Summing by tiles. A sum over n·k consecutive positions is the sum, over the n tiles of k positions, of the tiles'
  sums; and a running total that starts at zero and adds one tile's sum at each step holds, after n steps, the sum of
  the first n tiles' sums. Both use only that addition is commutative and associative, so they hold on the extended
  reals with no finiteness assumption.
-/
import Idealize.ShloMosaic.PureOps.Ideal

namespace Cert.Bridge

open scoped BigOperators

variable {M : Type*} [AddCommMonoid M]

/-- Over the naturals: the tiles' sums, summed, are the sum over all n·k positions. -/
theorem sum_tiles_nat (n k : ℕ) (F : ℕ → M) :
    ∑ t ∈ Finset.range n, ∑ r ∈ Finset.range k, F (k * t + r) = ∑ i ∈ Finset.range (n * k), F i := by
  induction n with
  | zero => simp
  | succ n ih =>
    rw [Finset.sum_range_succ, ih, Nat.succ_mul, Finset.sum_range_add, Nat.mul_comm k n]

/-- Over finite index types: position r of tile t is index k·t + r, however that index is spelt. -/
theorem sum_tiles_fin (n k : ℕ) (f : Fin (n * k) → M) (idx : Fin n → Fin k → Fin (n * k))
    (hidx : ∀ t r, (idx t r).val = k * t.val + r.val) :
    ∑ t : Fin n, ∑ r : Fin k, f (idx t r) = ∑ i : Fin (n * k), f i := by
  rw [← Equiv.sum_comp finProdFinEquiv f, Fintype.sum_prod_type]
  refine Finset.sum_congr rfl fun t _ => Finset.sum_congr rfl fun r _ => congrArg f (Fin.ext ?_)
  rw [hidx]
  show k * t.val + r.val = r.val + k * t.val
  exact Nat.add_comm _ _

/-- The 2048 positions as 8 tiles of 256. -/
theorem sum_eight_tiles (f : Fin 2048 → M) (idx : Fin 8 → Fin 256 → Fin 2048)
    (hidx : ∀ t r, (idx t r).val = 256 * t.val + r.val) :
    ∑ t : Fin 8, ∑ r : Fin 256, f (idx t r) = ∑ i : Fin 2048, f i :=
  sum_tiles_fin 8 256 f idx hidx

/-- A running total: zero before the first tile, and each step adds that tile's sum to what the step before left. -/
def runAcc (T : ℕ → M) : ℕ → M
  | 0 => 0
  | t + 1 => runAcc T t + T t

theorem runAcc_zero (T : ℕ → M) : runAcc T 0 = 0 := rfl
theorem runAcc_succ (T : ℕ → M) (t : ℕ) : runAcc T (t + 1) = runAcc T t + T t := rfl

/-- After n steps the running total is the sum of the first n tiles' sums. -/
theorem runAcc_eq_sum (T : ℕ → M) (n : ℕ) : runAcc T n = ∑ t ∈ Finset.range n, T t := by
  induction n with
  | zero => simp [runAcc]
  | succ n ih => rw [runAcc_succ, ih, Finset.sum_range_succ]

/-- The same with the tiles indexed by a finite type. -/
theorem runAcc_eq_sum_fin (n : ℕ) (T : ℕ → M) (T' : Fin n → M) (h : ∀ t : Fin n, T t.val = T' t) :
    runAcc T n = ∑ t : Fin n, T' t := by
  rw [runAcc_eq_sum, Finset.sum_range]
  exact Finset.sum_congr rfl fun t _ => h t

/-- Eight tiles of 256 accumulated one after the other from zero, in the nesting the steps produce, are the whole sum
    over the 2048 positions. -/
theorem eight_tiles_nested (f : Fin 2048 → M) (idx : Fin 8 → Fin 256 → Fin 2048)
    (hidx : ∀ t r, (idx t r).val = 256 * t.val + r.val) :
    ((((((((0 : M) + ∑ r : Fin 256, f (idx 0 r)) + ∑ r : Fin 256, f (idx 1 r)) + ∑ r : Fin 256, f (idx 2 r))
        + ∑ r : Fin 256, f (idx 3 r)) + ∑ r : Fin 256, f (idx 4 r)) + ∑ r : Fin 256, f (idx 5 r))
        + ∑ r : Fin 256, f (idx 6 r)) + ∑ r : Fin 256, f (idx 7 r)
      = ∑ i : Fin 2048, f i := by
  rw [← sum_eight_tiles f idx hidx, Fin.sum_univ_eight, zero_add]

/-- The running total over the eight tiles of 256 is the whole sum over the 2048 positions. -/
theorem runAcc_eight_tiles (f : Fin 2048 → M) (T : ℕ → M) (idx : Fin 8 → Fin 256 → Fin 2048)
    (hidx : ∀ t r, (idx t r).val = 256 * t.val + r.val) (hT : ∀ t : Fin 8, T t.val = ∑ r : Fin 256, f (idx t r)) :
    runAcc T 8 = ∑ i : Fin 2048, f i := by
  rw [runAcc_eq_sum_fin 8 T (fun t => ∑ r : Fin 256, f (idx t r)) hT]
  exact sum_eight_tiles f idx hidx

end Cert.Bridge
-- ==== Proof.Running.lean ====
/-
  The accumulation over the grid, and the tile law.

  Within a row block the four lane tiles are visited in order; the first visit starts each output at 0 + (tile's row
  sums) and each later visit adds its tile's row sums to what the visit before left. So after the visit at point n an
  output block holds, at row r, the sum of the row sums of the tiles visited so far in this row block — the points
  from n - n % 4 to n. After the fourth visit that is the sum over all 4 * 65536 = 262144 lanes: the row dot product.
  Addition on the extended reals is commutative and associative, and nothing more is used; no entry need be finite.
-/
import proofs.«174091_j87153476371100_2_alg».proof.Proof.Pieces
import proofs.«174091_j87153476371100_2_alg».proof.Proof.Payload
import proofs.«174091_j87153476371100_2_alg».proof.Proof.Blocks
import proofs.«174091_j87153476371100_2_alg».proof.Proof.LibTileSum
import proofs.«174091_j87153476371100_2_alg».proof.Proof.Spec

set_option maxRecDepth 16384

noncomputable section

open Idealize.ShloMosaic Idealize.ShloMosaic.TcCoe Idealize.SL.Sem Idealize.ShloMosaic.ValueIdx
open scoped BigOperators

namespace Cert.KernelIdeal.Body

open Cert.KernelIdeal Cert.KernelIdeal.Gen

variable (m : (ℓ : Loc nD τ sig) → Buf (Elt Ideal) ℓ)

/-- The three argument arrays on core c. -/
abbrev argT (c : Dev nD) : S64x1x262144.Idx → EReal := m ((c : Thread nD τ).loc main_arg0)
abbrev argP (c : Dev nD) : S64x1x262144.Idx → EReal := m ((c : Thread nD τ).loc main_arg1)
abbrev argW (c : Dev nD) : S64x1x262144.Idx → EReal := m ((c : Thread nD τ).loc main_arg2)

/-- The row sum, at block row r, of the tile that grid point n reads (0 for a number that is no grid point). -/
def tileN (f g : S64x1x262144.Idx → EReal) (r : Fin 32) (n : ℕ) : EReal :=
  if h : n < cfg0.N then
    ∑ l : Fin 65536, f (ix3 (row ⟨n, h⟩ r) (0 : Fin 1) (lane ⟨n, h⟩ l)) * g (ix3 (row ⟨n, h⟩ r) (0 : Fin 1) (lane ⟨n, h⟩ l))
  else 0

theorem tileN_at (f g : S64x1x262144.Idx → EReal) (r : Fin 32) (t : Fin cfg0.N) :
    tileN f g r t.val
      = ∑ l : Fin 65536, f (ix3 (row t r) (0 : Fin 1) (lane t l)) * g (ix3 (row t r) (0 : Fin 1) (lane t l)) :=
  dif_pos t.isLt

/-- The three input blocks at point t, typed as [32, 1, 65536] blocks. -/
abbrev blk0 (c : Dev nD) (t : Fin cfg0.N) : Vec Ideal S32x1x65536 .f32 := iblk m c 0 t
abbrev blk1 (c : Dev nD) (t : Fin cfg0.N) : Vec Ideal S32x1x65536 .f32 := iblk m c 1 t
abbrev blk2 (c : Dev nD) (t : Fin cfg0.N) : Vec Ideal S32x1x65536 .f32 := iblk m c 2 t

/-- The products of two input blocks' entries along row r, summed, are that tile's row sum of the two arrays. -/
theorem tile_pt (c : Dev nD) (t : Fin cfg0.N) (r : Fin 32) :
    (∑ l : Fin 65536, blk1 m c t (ix3 r (0 : Fin 1) l) * blk0 m c t (ix3 r (0 : Fin 1) l)) = tileN (argP m c) (argT m c) r t.val
    ∧ (∑ l : Fin 65536, blk0 m c t (ix3 r (0 : Fin 1) l) * blk0 m c t (ix3 r (0 : Fin 1) l)) = tileN (argT m c) (argT m c) r t.val
    ∧ (∑ l : Fin 65536, blk2 m c t (ix3 r (0 : Fin 1) l) * blk2 m c t (ix3 r (0 : Fin 1) l)) = tileN (argW m c) (argW m c) r t.val := by
  have b0 : ∀ l : Fin 65536, blk0 m c t (ix3 r (0 : Fin 1) l) = argT m c (ix3 (row t r) (0 : Fin 1) (lane t l)) :=
    fun l => iblk0_apply m c t r l
  have b1 : ∀ l : Fin 65536, blk1 m c t (ix3 r (0 : Fin 1) l) = argP m c (ix3 (row t r) (0 : Fin 1) (lane t l)) :=
    fun l => iblk1_apply m c t r l
  have b2 : ∀ l : Fin 65536, blk2 m c t (ix3 r (0 : Fin 1) l) = argW m c (ix3 (row t r) (0 : Fin 1) (lane t l)) :=
    fun l => iblk2_apply m c t r l
  refine ⟨?_, ?_, ?_⟩
  · rw [tileN_at]; exact Finset.sum_congr rfl fun l _ => by rw [b1, b0]
  · rw [tileN_at]; exact Finset.sum_congr rfl fun l _ => by rw [b0]
  · rw [tileN_at]; exact Finset.sum_congr rfl fun l _ => by rw [b2]

/-- A point that starts a row block leaves each output at this tile's row sums. -/
theorem step_A (c : Dev nD) (t : Fin cfg0.N) (h0 : t.val % 4 = 0) (r : Fin 32) (q : Fin 1) :
    (outsAt0 m c t.val t.isLt).1 (ix2 r q) = tileN (argP m c) (argT m c) r t.val
    ∧ (outsAt0 m c t.val t.isLt).2.1 (ix2 r q) = tileN (argT m c) (argT m c) r t.val
    ∧ (outsAt0 m c t.val t.isLt).2.2 (ix2 r q) = tileN (argW m c) (argW m c) r t.val := by
  obtain ⟨e3, e4, e5⟩ := tile_pt m c t r
  have hA := outsAt0_A m c t h0
  refine ⟨?_, ?_, ?_⟩
  · have h1 : (outsAt0 m c t.val t.isLt).1 = k0_pay5 (F := Ideal) (blk0 m c t) (blk1 m c t) (k0_pay1 (F := Ideal)) :=
      (congrArg (fun p => p.1) hA).trans (out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (blk0 m c t) (blk1 m c t) (blk2 m c t))
    refine (congrFun h1 (ix2 r q)).trans ?_
    refine (pay5_apply (blk0 m c t) (blk1 m c t) (k0_pay1 (F := Ideal)) r q).trans ?_
    rw [pay1_apply, zero_add]; exact e3
  · have h1 : (outsAt0 m c t.val t.isLt).2.1 = k0_pay6 (F := Ideal) (blk0 m c t) (k0_pay2 (F := Ideal)) :=
      (congrArg (fun p => p.2.1) hA).trans (out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (blk0 m c t) (blk1 m c t) (blk2 m c t))
    refine (congrFun h1 (ix2 r q)).trans ?_
    refine (pay6_apply (blk0 m c t) (k0_pay2 (F := Ideal)) r q).trans ?_
    rw [pay2_apply, zero_add]; exact e4
  · have h1 : (outsAt0 m c t.val t.isLt).2.2 = k0_pay7 (F := Ideal) (blk2 m c t) (k0_pay3 (F := Ideal)) :=
      (congrArg (fun p => p.2.2) hA).trans (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (blk0 m c t) (blk1 m c t) (blk2 m c t))
    refine (congrFun h1 (ix2 r q)).trans ?_
    refine (pay7_apply (blk2 m c t) (k0_pay3 (F := Ideal)) r q).trans ?_
    rw [pay3_apply, zero_add]; exact e5

/-- A point that continues a row block leaves each output at what the point before left plus this tile's row sums. -/
theorem step_B (c : Dev nD) (t : Fin cfg0.N) (h0 : ¬t.val % 4 = 0) (r : Fin 32) (q : Fin 1) :
    (outsAt0 m c t.val t.isLt).1 (ix2 r q)
        = (outsAt0 m c (t.val - 1) (Nat.lt_of_le_of_lt (Nat.sub_le _ _) t.isLt)).1 (ix2 r q) + tileN (argP m c) (argT m c) r t.val
    ∧ (outsAt0 m c t.val t.isLt).2.1 (ix2 r q)
        = (outsAt0 m c (t.val - 1) (Nat.lt_of_le_of_lt (Nat.sub_le _ _) t.isLt)).2.1 (ix2 r q) + tileN (argT m c) (argT m c) r t.val
    ∧ (outsAt0 m c t.val t.isLt).2.2 (ix2 r q)
        = (outsAt0 m c (t.val - 1) (Nat.lt_of_le_of_lt (Nat.sub_le _ _) t.isLt)).2.2 (ix2 r q) + tileN (argW m c) (argW m c) r t.val := by
  obtain ⟨e3, e4, e5⟩ := tile_pt m c t r
  have hB := outsAt0_B m c t h0
  refine ⟨?_, ?_, ?_⟩
  · have h1 : (outsAt0 m c t.val t.isLt).1 = k0_pay5 (F := Ideal) (blk0 m c t) (blk1 m c t) (outsAt0 m c (t.val - 1) (Nat.lt_of_le_of_lt (Nat.sub_le _ _) t.isLt)).1 :=
      (congrArg (fun p => p.1) hB).trans (out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (blk0 m c t) (blk1 m c t) (blk2 m c t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2)
    refine (congrFun h1 (ix2 r q)).trans ?_
    refine (pay5_apply (blk0 m c t) (blk1 m c t) (outsAt0 m c (t.val - 1) (Nat.lt_of_le_of_lt (Nat.sub_le _ _) t.isLt)).1 r q).trans ?_
    rw [e3]
  · have h1 : (outsAt0 m c t.val t.isLt).2.1 = k0_pay6 (F := Ideal) (blk0 m c t) (outsAt0 m c (t.val - 1) (Nat.lt_of_le_of_lt (Nat.sub_le _ _) t.isLt)).2.1 :=
      (congrArg (fun p => p.2.1) hB).trans (out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (blk0 m c t) (blk1 m c t) (blk2 m c t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2)
    refine (congrFun h1 (ix2 r q)).trans ?_
    refine (pay6_apply (blk0 m c t) (outsAt0 m c (t.val - 1) (Nat.lt_of_le_of_lt (Nat.sub_le _ _) t.isLt)).2.1 r q).trans ?_
    rw [e4]
  · have h1 : (outsAt0 m c t.val t.isLt).2.2 = k0_pay7 (F := Ideal) (blk2 m c t) (outsAt0 m c (t.val - 1) (Nat.lt_of_le_of_lt (Nat.sub_le _ _) t.isLt)).2.2 :=
      (congrArg (fun p => p.2.2) hB).trans (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (blk0 m c t) (blk1 m c t) (blk2 m c t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2)
    refine (congrFun h1 (ix2 r q)).trans ?_
    refine (pay7_apply (blk2 m c t) (outsAt0 m c (t.val - 1) (Nat.lt_of_le_of_lt (Nat.sub_le _ _) t.isLt)).2.2 r q).trans ?_
    rw [e5]

/-- After the visit at point n each output holds, at row r, the row sums of the tiles visited so far in n's row block. -/
theorem running (c : Dev nD) (r : Fin 32) (q : Fin 1) : ∀ (n : ℕ) (h : n < cfg0.N),
    (outsAt0 m c n h).1 (ix2 r q) = ∑ i ∈ Finset.Ico (n - n % 4) (n + 1), tileN (argP m c) (argT m c) r i
    ∧ (outsAt0 m c n h).2.1 (ix2 r q) = ∑ i ∈ Finset.Ico (n - n % 4) (n + 1), tileN (argT m c) (argT m c) r i
    ∧ (outsAt0 m c n h).2.2 (ix2 r q) = ∑ i ∈ Finset.Ico (n - n % 4) (n + 1), tileN (argW m c) (argW m c) r i
  | 0, h => by
    obtain ⟨a, b, d⟩ := step_A m c ⟨0, h⟩ rfl r q
    have e : Finset.Ico (0 - 0 % 4) (0 + 1) = {0} := by decide
    rw [e, Finset.sum_singleton, Finset.sum_singleton, Finset.sum_singleton]
    exact ⟨a, b, d⟩
  | n + 1, h => by
    by_cases h0 : (n + 1) % 4 = 0
    · obtain ⟨a, b, d⟩ := step_A m c ⟨n + 1, h⟩ h0 r q
      have e : Finset.Ico (n + 1 - (n + 1) % 4) (n + 1 + 1) = {n + 1} := by
        rw [h0, Nat.sub_zero]; exact Nat.Ico_succ_singleton (n + 1)
      rw [e, Finset.sum_singleton, Finset.sum_singleton, Finset.sum_singleton]
      exact ⟨a, b, d⟩
    · obtain ⟨a, b, d⟩ := step_B m c ⟨n + 1, h⟩ h0 r q
      obtain ⟨ia, ib, id⟩ := running c r q n (Nat.lt_of_succ_lt h)
      have e : n + 1 - (n + 1) % 4 = n - n % 4 := by omega
      have hle : n - n % 4 ≤ n + 1 := by omega
      rw [e, Finset.sum_Ico_succ_top hle, Finset.sum_Ico_succ_top hle, Finset.sum_Ico_succ_top hle, ← ia, ← ib, ← id]
      exact ⟨a, b, d⟩

/-- The four tiles of a row block, summed, are the whole row: 4 tiles of 65536 lanes are the 262144 lanes. -/
theorem block_total (f g : S64x1x262144.Idx → EReal) (b : ℕ) (hb : b < 2) (r : Fin 32) :
    ∑ i ∈ Finset.Ico (4 * b) (4 * b + 4), tileN f g r i
      = Cert.Snr.rowDot f g ⟨32 * b + r.val, by have := r.isLt; omega⟩ := by
  rw [Finset.sum_Ico_eq_sum_range, show 4 * b + 4 - 4 * b = 4 from by omega, Finset.sum_range]
  unfold Cert.Snr.rowDot
  have key := Cert.Bridge.sum_tiles_fin 4 65536
    (fun k : Fin (4 * 65536) => f (ix3 (⟨32 * b + r.val, by have := r.isLt; omega⟩ : Fin 64) (0 : Fin 1) k)
      * g (ix3 (⟨32 * b + r.val, by have := r.isLt; omega⟩ : Fin 64) (0 : Fin 1) k))
    (fun j l => ⟨65536 * j.val + l.val, by have := j.isLt; have := l.isLt; omega⟩) (fun _ _ => rfl)
  refine Eq.trans ?_ key
  refine Finset.sum_congr rfl fun j _ => ?_
  have hj := j.isLt
  have ht : 4 * b + j.val < cfg0.N := by rw [show cfg0.N = 8 from N_0]; omega
  refine (tileN_at f g r ⟨4 * b + j.val, ht⟩).trans ?_
  refine Finset.sum_congr rfl fun l _ => ?_
  have eR : row ⟨4 * b + j.val, ht⟩ r = (⟨32 * b + r.val, by have := r.isLt; omega⟩ : Fin 64) :=
    Fin.ext (by rw [row_val]; show 32 * ((4 * b + j.val) / 4) + r.val = 32 * b + r.val; omega)
  have eL : lane ⟨4 * b + j.val, ht⟩ l = (⟨65536 * j.val + l.val, by have := l.isLt; omega⟩ : Fin 262144) :=
    Fin.ext (by rw [lane_val]; show 65536 * ((4 * b + j.val) % 4) + l.val = 65536 * j.val + l.val; omega)
  rw [eR, eL]

end Cert.KernelIdeal.Body

end
-- ==== Proof.Final.lean ====
/-
  From blocks to arrays. Each output is a [64, 1] array written in two blocks of 32 rows; a block is written back once,
  after the fourth lane tile of its row block (the grid points 3 and 7), when it holds the complete row dot products of
  its 32 rows. The two blocks cover the array, so each output array ends holding, at row R, the row dot product of
  row R.
-/
import proofs.«174091_j87153476371100_2_alg».proof.Proof.Running

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Body

open Cert.KernelIdeal Cert.KernelIdeal.Gen

variable (m : (ℓ : Loc nD τ sig) → Buf (Elt Ideal) ℓ)

/-! ## Output 0: the dot products of prediction and target -/

/-- What the array ends holding: at row R the row dot product. -/
def outPT (c : Dev nD) : S64x1.Idx → EReal := fun i => Cert.Snr.rowDot (argP m c) (argT m c) (i 0)

/-- After the fourth visit of a row block, row r of the output block is the row dot product of array row 32 * (t / 4) + r. -/
theorem total3 (c : Dev nD) (t : Fin cfg0.N) (h3 : t.val % 4 = 3) (r : Fin 32) (q : Fin 1) :
    (outsAt0 m c t.val t.isLt).1 (ix2 r q) = outPT m c (ix2 (row t r) q) := by
  have hN := t_lt t
  refine ((running m c r q t.val t.isLt).1).trans ?_
  rw [show t.val - t.val % 4 = 4 * (t.val / 4) from by omega, show t.val + 1 = 4 * (t.val / 4) + 4 from by omega]
  exact block_total _ _ (t.val / 4) (by omega) r

/-- A point that writes the block back writes the rows of `outPT` that the block covers. -/
theorem flushed3_eq (c : Dev nD) (t : Fin cfg0.N) (hf : (cfg0.win 3).flush t = true) :
    (dats m 0 c).flushed 3 t = ((cfg0.win 3).blk t).view.read (Elt Ideal) (outPT m c) := by
  have h3 : t.val % 4 = 3 := (flush0_3 t).mp hf
  show (cfg0.win 3).cut (grid0.coords t) ((dats m 0 c).after 3 t) = _
  rw [after0_3]
  exact block_of_rows3 (F := Ideal) (outsAt0 m c t.val t.isLt).1 (outPT m c) t (fun r q => total3 m c t h3 r q)

/-- Every row of the [64, 1] array is in the block some writing-back point writes: row R in that of point 4 * (R / 32) + 3. -/
theorem cover3 (i : S64x1.Idx) : ∃ t : Fin cfg0.N, (cfg0.win 3).flush t = true ∧ i ∈ ((cfg0.win 3).blk t).view.set := by
  have hi0 : (i 0).val < 64 := (i 0).isLt
  have hi1 : (i 1).val < 1 := (i 1).isLt
  have ht : 4 * ((i 0).val / 32) + 3 < cfg0.N := by rw [show cfg0.N = 8 from N_0]; omega
  obtain ⟨e0, e1⟩ := index_out3 ⟨4 * ((i 0).val / 32) + 3, ht⟩
  refine ⟨⟨4 * ((i 0).val / 32) + 3, ht⟩, (flush0_3 _).mpr (by show (4 * ((i 0).val / 32) + 3) % 4 = 3; omega), ?_⟩
  show i ∈ ((View.whole main_call0_v0_0).slice (win0_3.rect ⟨4 * ((i 0).val / 32) + 3, ht⟩)).set
  rw [View.set_slice_whole, Rect.mem_set_unit]
  intro a
  match a with
  | ⟨0, _⟩ =>
    show win0_3.index ⟨4 * ((i 0).val / 32) + 3, ht⟩ (0 : Fin 2) * 32 ≤ (i 0).val
      ∧ (i 0).val < win0_3.index ⟨4 * ((i 0).val / 32) + 3, ht⟩ (0 : Fin 2) * 32 + 32
    rw [e0]; show (4 * ((i 0).val / 32) + 3) / 4 * 32 ≤ (i 0).val ∧ (i 0).val < (4 * ((i 0).val / 32) + 3) / 4 * 32 + 32; omega
  | ⟨1, _⟩ =>
    show win0_3.index ⟨4 * ((i 0).val / 32) + 3, ht⟩ (1 : Fin 2) * 1 ≤ (i 1).val
      ∧ (i 1).val < win0_3.index ⟨4 * ((i 0).val / 32) + 3, ht⟩ (1 : Fin 2) * 1 + 1
    rw [e1]; omega

/-- So the array ends holding `outPT`. -/
theorem final3 (c : Dev nD) : (dats m 0 c).arrAt 3 cfg0.N = outPT m c :=
  (dats m 0 c).arrAt_eq_of_cover 3 (outPT m c) (flushed3_eq m c) cover3

/-! ## Output 1: the dot products of target with itself -/

/-- What the array ends holding: at row R the row dot product. -/
def outTT (c : Dev nD) : S64x1.Idx → EReal := fun i => Cert.Snr.rowDot (argT m c) (argT m c) (i 0)

/-- After the fourth visit of a row block, row r of the output block is the row dot product of array row 32 * (t / 4) + r. -/
theorem total4 (c : Dev nD) (t : Fin cfg0.N) (h3 : t.val % 4 = 3) (r : Fin 32) (q : Fin 1) :
    (outsAt0 m c t.val t.isLt).2.1 (ix2 r q) = outTT m c (ix2 (row t r) q) := by
  have hN := t_lt t
  refine ((running m c r q t.val t.isLt).2.1).trans ?_
  rw [show t.val - t.val % 4 = 4 * (t.val / 4) from by omega, show t.val + 1 = 4 * (t.val / 4) + 4 from by omega]
  exact block_total _ _ (t.val / 4) (by omega) r

/-- A point that writes the block back writes the rows of `outTT` that the block covers. -/
theorem flushed4_eq (c : Dev nD) (t : Fin cfg0.N) (hf : (cfg0.win 4).flush t = true) :
    (dats m 0 c).flushed 4 t = ((cfg0.win 4).blk t).view.read (Elt Ideal) (outTT m c) := by
  have h3 : t.val % 4 = 3 := (flush0_4 t).mp hf
  show (cfg0.win 4).cut (grid0.coords t) ((dats m 0 c).after 4 t) = _
  rw [after0_4]
  exact block_of_rows4 (F := Ideal) (outsAt0 m c t.val t.isLt).2.1 (outTT m c) t (fun r q => total4 m c t h3 r q)

/-- Every row of the [64, 1] array is in the block some writing-back point writes: row R in that of point 4 * (R / 32) + 3. -/
theorem cover4 (i : S64x1.Idx) : ∃ t : Fin cfg0.N, (cfg0.win 4).flush t = true ∧ i ∈ ((cfg0.win 4).blk t).view.set := by
  have hi0 : (i 0).val < 64 := (i 0).isLt
  have hi1 : (i 1).val < 1 := (i 1).isLt
  have ht : 4 * ((i 0).val / 32) + 3 < cfg0.N := by rw [show cfg0.N = 8 from N_0]; omega
  obtain ⟨e0, e1⟩ := index_out4 ⟨4 * ((i 0).val / 32) + 3, ht⟩
  refine ⟨⟨4 * ((i 0).val / 32) + 3, ht⟩, (flush0_4 _).mpr (by show (4 * ((i 0).val / 32) + 3) % 4 = 3; omega), ?_⟩
  show i ∈ ((View.whole main_call0_v0_1).slice (win0_4.rect ⟨4 * ((i 0).val / 32) + 3, ht⟩)).set
  rw [View.set_slice_whole, Rect.mem_set_unit]
  intro a
  match a with
  | ⟨0, _⟩ =>
    show win0_4.index ⟨4 * ((i 0).val / 32) + 3, ht⟩ (0 : Fin 2) * 32 ≤ (i 0).val
      ∧ (i 0).val < win0_4.index ⟨4 * ((i 0).val / 32) + 3, ht⟩ (0 : Fin 2) * 32 + 32
    rw [e0]; show (4 * ((i 0).val / 32) + 3) / 4 * 32 ≤ (i 0).val ∧ (i 0).val < (4 * ((i 0).val / 32) + 3) / 4 * 32 + 32; omega
  | ⟨1, _⟩ =>
    show win0_4.index ⟨4 * ((i 0).val / 32) + 3, ht⟩ (1 : Fin 2) * 1 ≤ (i 1).val
      ∧ (i 1).val < win0_4.index ⟨4 * ((i 0).val / 32) + 3, ht⟩ (1 : Fin 2) * 1 + 1
    rw [e1]; omega

/-- So the array ends holding `outTT`. -/
theorem final4 (c : Dev nD) : (dats m 0 c).arrAt 4 cfg0.N = outTT m c :=
  (dats m 0 c).arrAt_eq_of_cover 4 (outTT m c) (flushed4_eq m c) cover4

/-! ## Output 2: the dot products of noise with itself -/

/-- What the array ends holding: at row R the row dot product. -/
def outNN (c : Dev nD) : S64x1.Idx → EReal := fun i => Cert.Snr.rowDot (argW m c) (argW m c) (i 0)

/-- After the fourth visit of a row block, row r of the output block is the row dot product of array row 32 * (t / 4) + r. -/
theorem total5 (c : Dev nD) (t : Fin cfg0.N) (h3 : t.val % 4 = 3) (r : Fin 32) (q : Fin 1) :
    (outsAt0 m c t.val t.isLt).2.2 (ix2 r q) = outNN m c (ix2 (row t r) q) := by
  have hN := t_lt t
  refine ((running m c r q t.val t.isLt).2.2).trans ?_
  rw [show t.val - t.val % 4 = 4 * (t.val / 4) from by omega, show t.val + 1 = 4 * (t.val / 4) + 4 from by omega]
  exact block_total _ _ (t.val / 4) (by omega) r

/-- A point that writes the block back writes the rows of `outNN` that the block covers. -/
theorem flushed5_eq (c : Dev nD) (t : Fin cfg0.N) (hf : (cfg0.win 5).flush t = true) :
    (dats m 0 c).flushed 5 t = ((cfg0.win 5).blk t).view.read (Elt Ideal) (outNN m c) := by
  have h3 : t.val % 4 = 3 := (flush0_5 t).mp hf
  show (cfg0.win 5).cut (grid0.coords t) ((dats m 0 c).after 5 t) = _
  rw [after0_5]
  exact block_of_rows5 (F := Ideal) (outsAt0 m c t.val t.isLt).2.2 (outNN m c) t (fun r q => total5 m c t h3 r q)

/-- Every row of the [64, 1] array is in the block some writing-back point writes: row R in that of point 4 * (R / 32) + 3. -/
theorem cover5 (i : S64x1.Idx) : ∃ t : Fin cfg0.N, (cfg0.win 5).flush t = true ∧ i ∈ ((cfg0.win 5).blk t).view.set := by
  have hi0 : (i 0).val < 64 := (i 0).isLt
  have hi1 : (i 1).val < 1 := (i 1).isLt
  have ht : 4 * ((i 0).val / 32) + 3 < cfg0.N := by rw [show cfg0.N = 8 from N_0]; omega
  obtain ⟨e0, e1⟩ := index_out5 ⟨4 * ((i 0).val / 32) + 3, ht⟩
  refine ⟨⟨4 * ((i 0).val / 32) + 3, ht⟩, (flush0_5 _).mpr (by show (4 * ((i 0).val / 32) + 3) % 4 = 3; omega), ?_⟩
  show i ∈ ((View.whole main_call0_v0_2).slice (win0_5.rect ⟨4 * ((i 0).val / 32) + 3, ht⟩)).set
  rw [View.set_slice_whole, Rect.mem_set_unit]
  intro a
  match a with
  | ⟨0, _⟩ =>
    show win0_5.index ⟨4 * ((i 0).val / 32) + 3, ht⟩ (0 : Fin 2) * 32 ≤ (i 0).val
      ∧ (i 0).val < win0_5.index ⟨4 * ((i 0).val / 32) + 3, ht⟩ (0 : Fin 2) * 32 + 32
    rw [e0]; show (4 * ((i 0).val / 32) + 3) / 4 * 32 ≤ (i 0).val ∧ (i 0).val < (4 * ((i 0).val / 32) + 3) / 4 * 32 + 32; omega
  | ⟨1, _⟩ =>
    show win0_5.index ⟨4 * ((i 0).val / 32) + 3, ht⟩ (1 : Fin 2) * 1 ≤ (i 1).val
      ∧ (i 1).val < win0_5.index ⟨4 * ((i 0).val / 32) + 3, ht⟩ (1 : Fin 2) * 1 + 1
    rw [e1]; omega

/-- So the array ends holding `outNN`. -/
theorem final5 (c : Dev nD) : (dats m 0 c).arrAt 5 cfg0.N = outNN m c :=
  (dats m 0 c).arrAt_eq_of_cover 5 (outNN m c) (flushed5_eq m c) cover5

end Cert.KernelIdeal.Body

end
-- ==== Proof.LibTRef.lean ====
/-
  A called function's buffers hold values at the function's own types; an operation inside the call reads and writes a
  buffer through a transport along the equation between the buffer's type and the value's type. Carrying a value to the
  buffer's type and back gives the value again, so a chain of operations inside a call composes as if there were no
  transports.
-/
import Idealize.ShloMosaic.Lib.StableHlo

namespace Cert.TRefLemmas

open Idealize.ShloMosaic

/-- Contents carried to a buffer's type and back are unchanged. -/
theorem ofBuf_toBuf {sg : RefSig} {Vl : EltTy → Type} {T : BufTy} (x : StableHlo.TRef sg T) (v : T.Contents Vl) :
    x.ofBuf (x.toBuf v) = v := by
  unfold StableHlo.TRef.ofBuf StableHlo.TRef.toBuf
  simp

end Cert.TRefLemmas
-- ==== Proof.Tail.lean ====
/-
  The host operations after the kernel: each [64, 1] result array is viewed as a length-64 vector, and the closing
  computation is applied to the three vectors. Read off the program's text for any reading of the floats: nothing here
  depends on what the arrays hold.
-/
import proofs.«174091_j87153476371100_2_alg».proof.Proof.Gen.KernelIdeal.Frame
import proofs.«174091_j87153476371100_2_alg».proof.Proof.Spec
import proofs.«174091_j87153476371100_2_alg».proof.Proof.LibTRef
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KernelIdeal.Body

open Cert.KernelIdeal Cert.KernelIdeal.Gen

variable {F : FTy → Type} [FloatOps F]
variable (m : (ℓ : Loc nD τ sig) → Buf (Elt F) ℓ)

set_option maxHeartbeats 1000000 in
/-- The program's scalar result is the closing computation of the three result arrays' length-64 views. -/
theorem tail_term (c : Dev nD) :
    Pipeline.afterTail₀ cfgs (dats m) 0 (V0 m) [hostOps1] c main_v0
      = Cert.Snr.closing (F := F) bcast_S_S64 reducesTo_S64_S_d0 h_S_
          (shapeCast S64 ((dats m 0 c).arrAt 3 cfg0.N) shapeCasts_S64x1_S64)
          (shapeCast S64 ((dats m 0 c).arrAt 4 cfg0.N) shapeCasts_S64x1_S64)
          (shapeCast S64 ((dats m 0 c).arrAt 5 cfg0.N) shapeCasts_S64x1_S64) := by
  have a3 : Pipeline.withArrays spec0 c (V0 m c) (fun w => (dats m 0 c).arrAt w cfg0.N) (Proc.devRef .tc (Pipeline.arrRef spec0 3))
      = (dats m 0 c).arrAt 3 cfg0.N := Pipeline.withArrays_arr spec0 launch0.win.arr_inj c _ _ 3
  have a4 : Pipeline.withArrays spec0 c (V0 m c) (fun w => (dats m 0 c).arrAt w cfg0.N) (Proc.devRef .tc (Pipeline.arrRef spec0 4))
      = (dats m 0 c).arrAt 4 cfg0.N := Pipeline.withArrays_arr spec0 launch0.win.arr_inj c _ _ 4
  have a5 : Pipeline.withArrays spec0 c (V0 m c) (fun w => (dats m 0 c).arrAt w cfg0.N) (Proc.devRef .tc (Pipeline.arrRef spec0 5))
      = (dats m 0 c).arrAt 5 cfg0.N := Pipeline.withArrays_arr spec0 launch0.win.arr_inj c _ _ 5
  rw [← a3, ← a4, ← a5]
  -- X stands for the closing computation of the three views; the program's 24 operations, composed, are X
  have key : ∀ X : Buf (Elt F) ((c.tc : Thread nD τ).loc main_v0),
      X = Cert.Snr.closing (F := F) bcast_S_S64 reducesTo_S64_S_d0 h_S_
          (shapeCast S64 (Pipeline.withArrays spec0 c (V0 m c) (fun w => (dats m 0 c).arrAt w cfg0.N) (Proc.devRef .tc (Pipeline.arrRef spec0 3))) shapeCasts_S64x1_S64)
          (shapeCast S64 (Pipeline.withArrays spec0 c (V0 m c) (fun w => (dats m 0 c).arrAt w cfg0.N) (Proc.devRef .tc (Pipeline.arrRef spec0 4))) shapeCasts_S64x1_S64)
          (shapeCast S64 (Pipeline.withArrays spec0 c (V0 m c) (fun w => (dats m 0 c).arrAt w cfg0.N) (Proc.devRef .tc (Pipeline.arrRef spec0 5))) shapeCasts_S64x1_S64)
        → Pipeline.afterTail₀ cfgs (dats m) 0 (V0 m) [hostOps1] c main_v0 = X := by
    intro X hX
    unfold Pipeline.afterTail₀
    show StableHlo.after hostOps1 _ (Proc.devRef .tc main_v0) = X
    after_results
    simp only [Cert.TRefLemmas.ofBuf_toBuf]
    subst hX
    rfl
  exact key _ rfl

end Cert.KernelIdeal.Body

end
-- ==== Proof.KernelRun.lean ====
/-
  The idealized kernel's run, read: its scalar result is the specified function of the three argument arrays, and the
  arguments end unchanged.
-/
import proofs.«174091_j87153476371100_2_alg».proof.Proof.Final
import proofs.«174091_j87153476371100_2_alg».proof.Proof.Tail

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen

variable (m : (ℓ : Loc nD τ sig) → Buf (Elt Ideal) ℓ)

/-- A [64, 1] column of row dot products viewed as a length-64 vector is the vector of row dot products: entry R of the
    vector and entry (R, 0) of the column have the same row-major position. -/
theorem column_as_rows (f g : S64x1x262144.Idx → EReal) :
    shapeCast S64 (fun i : S64x1.Idx => Cert.Snr.rowDot f g (i 0)) shapeCasts_S64x1_S64 = Cert.Snr.rowDots f g := by
  funext i
  refine (shapeCast_apply _ shapeCasts_S64x1_S64 i (ix2 (n0 := 64) (n1 := 1) (i 0) (0 : Fin 1)) ?_).trans rfl
  rw [Shape.rowMajor_val_two, Shape.rowMajor_val_one]
  show (i 0).val * 1 + 0 = (i 0).val
  omega

/-- The program's scalar result is the specified function of its three arguments. -/
theorem result_eq (c : Dev nD) :
    Pipeline.afterTail₀ cfgs (dats m) 0 (V0 m) [hostOps1] c main_v0
      = Cert.Snr.result bcast_S_S64 reducesTo_S64_S_d0 h_S_ (argT m c) (argP m c) (argW m c) := by
  rw [tail_term m c, final3, final4, final5]
  unfold outPT outTT outNN Cert.Snr.result
  rw [column_as_rows, column_as_rows, column_as_rows]

/-- Every weakly fair execution terminates with the result at the specified function of the arguments and the
    arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v0)
        = Cert.Snr.result bcast_S_S64 reducesTo_S64_S_d0 h_S_ (argT m c) (argP m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v0 (Pipeline.mem_restRefs_of main_v0 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Body

end
-- ==== Proof.lean ====
/-
  Signal-to-noise ratio loss. For three arrays t (target), p (prediction), w (noise) of shape [64, 1, 262144] both
  programs compute, per row R, the dot products pt R = sum_k p * t, tt R = sum_k t * t, nn R = sum_k w * w along the last
  axis, and then the same closing computation mean_R 10 * (log(nn / ((pt / (tt + e))^2 * tt + e)) * c).

  The reference sums each row of 262144 products in one reduction from 0. The kernel walks a 2 x 4 grid: 2 blocks of 32
  rows, 4 tiles of 65536 lanes; at the first tile of a row block it stores zero into its three [32, 1] output blocks and
  at every tile it adds that tile's row sums to them, writing a block back after its fourth tile. Over the extended
  reals a row's four tile sums added in order from 0 are the row's whole sum, by commutativity and associativity of
  addition alone, so the three vectors agree with no finiteness assumption, and the closing computation — the same
  operations with the same float words on both sides — is carried as one function of the three vectors.

  The three frames: the two kernels' are the generated frame runs; the reference has no kernel and its frame is its run
  with the result dropped. The idealization rewrote nothing, so there is nothing to preserve.
-/
import proofs.«174091_j87153476371100_2_alg».proof.Defs
import proofs.«174091_j87153476371100_2_alg».proof.Proof.Gen.Kernel
import proofs.«174091_j87153476371100_2_alg».proof.Proof.Gen.Kernel.Frame
import proofs.«174091_j87153476371100_2_alg».proof.Proof.Gen.KernelIdeal
import proofs.«174091_j87153476371100_2_alg».proof.Proof.Gen.KernelIdeal.Frame
import proofs.«174091_j87153476371100_2_alg».proof.Proof.Gen.ReferenceIdeal
import proofs.«174091_j87153476371100_2_alg».proof.Proof.Gen.ReferenceIdeal.Run
import proofs.«174091_j87153476371100_2_alg».proof.Proof.Gen.ReferenceIdeal.Read
import proofs.«174091_j87153476371100_2_alg».proof.Proof.Gen.Pre_finite_inputs
import proofs.«174091_j87153476371100_2_alg».proof.Proof.Reference
import proofs.«174091_j87153476371100_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's scalar result and the reference's are the same function of arguments that
    agree: the kernel's three accumulated vectors are the row dot products, the reference's three row sums are the row
    dot products, and both apply the same closing computation. -/
theorem algebraic : Cert.algebraic_KernelIdeal_ReferenceIdeal := by
  intro m ρ m' ρ' _ hagree
  refine ⟨fun c => Cert.Snr.result Cert.KernelIdeal.Gen.bcast_S_S64 Cert.KernelIdeal.Gen.reducesTo_S64_S_d0 Cert.KernelIdeal.Gen.h_S_
      (Cert.KernelIdeal.Body.argT m c) (Cert.KernelIdeal.Body.argP m c) (Cert.KernelIdeal.Body.argW m c),
    Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v23_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
